-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16x128 .f32) (main_arg9 : FVec F S16 .f32) (main_v33 : IVec S_ 1) : IVec S_ 1 :=
  let main_v34 : FVec F S16x128 .f32 := Host.absf main_arg8
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S16x128 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S16x128 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x16 : Shape := ⟨2, ![128, 16]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S16x128, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S128x128, .f32⟩
  | .hbm, ⟨62, _⟩ => ⟨S128x128, .f32⟩
  | .hbm, ⟨63, _⟩ => ⟨S128x16, .f32⟩
  | .hbm, ⟨64, _⟩ => ⟨S1x128, .f32⟩
  | .hbm, ⟨65, _⟩ => ⟨S1x16, .f32⟩
  | .hbm, ⟨66, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S16x128_S128x16_1_0 : S16x128.Transposes [1, 0] S128x16
  shapeCasts_S16_S1x16 : S16.ShapeCasts S1x16
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x16.size a ≤ S128x16.size a
  hwx1_5 : ∀ i : grid1.Coords, EltTy.bits .f32 = 32 ∨ (Rect.block (s := S128x16) S128x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x16.size a ≤ S100000x16.size a
  hwx1_7 : ∀ i : grid1.Coords, EltTy.bits .f32 = 32 ∨ (Rect.block (s := S100000x16) S5000x16.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x16 : Shape := ⟨2, ![128, 16]⟩
abbrev S100000x16 : Shape := ⟨2, ![100000, 16]⟩
abbrev S1x16 : Shape := ⟨2, ![1, 16]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S16x128, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S100000x128, .f32⟩
  | .hbm, ⟨83, _⟩ => ⟨S128x16, .f32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S16x128_S128x16_1_0 : S16x128.Transposes [1, 0] S128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel program's run, with the result named.

  The program is a stretch of host operations, the first kernel, a second stretch of host operations and the second
  kernel. Running it from any memory ends, on every core, with every buffer that outlives the kernels at the contents
  of the last boundary: the fold of the two stretches and the two kernels' write-backs over the launch memory. In
  particular the result buffer holds what the second kernel's steps wrote back, and the arguments are as launched.
-/
import proofs.«177372_j37958920962738_1_alg».proof.Proof.Gen.KernelIdeal.Frame
import Idealize.ShloMosaic.PureOps.Ideal

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, and on every core each buffer that outlives the kernels ends at the last
    boundary's contents. -/
theorem run_held : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer named: it ends at the last boundary's contents there, and each argument as launched. -/
theorem run_result : θ_run defs (onTc (τ := τ) (main (F := Ideal))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v46 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩)
    (run_held m ρ)

end Cert.Sage.KernelRun

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.Payloads.lean ====
/-
  What one grid step of each kernel computes, entry by entry, over the extended reals.

  Layer 1's step takes 5000 rows of the node features `x`, the same rows of the neighbour means `agg`, the two weight
  matrices already transposed (`wl`, `wr` : [in, out]) and the bias as one row, and writes
  `max (agg · wl + x · wr + b) 0` for those rows. Layer 2's step computes `z = agg · wl + h · wr + b` the same way and
  then the classifier `z · wc + bc` (16 columns). A change of float format is the identity on the extended reals, a
  reshape to the same shape moves nothing, and a product accumulated into zeros is the plain sum over the shared axis.
-/
import proofs.«177372_j37958920962738_1_alg».proof.Proof.Gen.KernelIdeal.Skeleton
import proofs.«177372_j37958920962738_1_alg».proof.Proof.LibPlainProduct
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.Sage.Payloads

open Idealize.ShloMosaic Idealize.ShloMosaic.ValueIdx Cert.KernelIdeal Cert.KernelIdeal.Facts₀ Cert.KernelIdeal.Facts

/-- One row of `agg · wl + f · wr + b`, for matrices of any number of rows: the two products over the 128 input
    features and the bias of that column. -/
def affine {R : ℕ} (f agg : FVec Ideal ⟨2, ![R, 128]⟩ .f32) (wl wr : FVec Ideal ⟨2, ![128, 128]⟩ .f32)
    (b : FVec Ideal ⟨2, ![1, 128]⟩ .f32) (p : Fin R) (k : Fin 128) : EReal :=
  ((∑ c : Fin 128, agg (ix2 p c) * wl (ix2 c k)) + ∑ c : Fin 128, f (ix2 p c) * wr (ix2 c k)) + b (ix2 (0 : Fin 1) k)

/-- It reads one row of each matrix: rows that agree entry by entry give the same value. -/
theorem affine_rows {R R' : ℕ} (f agg : FVec Ideal ⟨2, ![R, 128]⟩ .f32) (f' agg' : FVec Ideal ⟨2, ![R', 128]⟩ .f32)
    (wl wr : FVec Ideal ⟨2, ![128, 128]⟩ .f32) (b : FVec Ideal ⟨2, ![1, 128]⟩ .f32) (p : Fin R) (p' : Fin R')
    (hf : ∀ c : Fin 128, f (ix2 p c) = f' (ix2 p' c)) (hagg : ∀ c : Fin 128, agg (ix2 p c) = agg' (ix2 p' c))
    (k : Fin 128) : affine f agg wl wr b p k = affine f' agg' wl wr b p' k := by
  unfold affine
  have e1 : (∑ c : Fin 128, agg (ix2 p c) * wl (ix2 c k)) = ∑ c : Fin 128, agg' (ix2 p' c) * wl (ix2 c k) :=
    Finset.sum_congr rfl fun c _ => congrArg (· * wl (ix2 c k)) (hagg c)
  have e2 : (∑ c : Fin 128, f (ix2 p c) * wr (ix2 c k)) = ∑ c : Fin 128, f' (ix2 p' c) * wr (ix2 c k) :=
    Finset.sum_congr rfl fun c _ => congrArg (· * wr (ix2 c k)) (hf c)
  rw [e1, e2]

/-- The block of `agg · wl + f · wr + b` as the kernels compute it (two products into zeros, their sum, the bias row
    copied down), at row `p`, column `k`. -/
theorem affine_apply (f agg : FVec Ideal S5000x128 .f32) (wl wr : FVec Ideal S128x128 .f32) (b : FVec Ideal S1x128 .f32)
    (p : Fin 5000) (k : Fin 128) :
    addf (addf (matmul (F := Ideal) (φ₁ := .f32) (φ₂ := .f32) dot_S5000x128_S128x128_S5000x128_1_0_0_1_n_n none agg wl
          (constant (F := Ideal) S5000x128 .f32 0x00000000#32))
        (matmul (F := Ideal) (φ₁ := .f32) (φ₂ := .f32) dot_S5000x128_S128x128_S5000x128_1_0_0_1_n_n none f wr
          (constant (F := Ideal) S5000x128 .f32 0x00000000#32)))
      (broadcastTo S5000x128 b broadcasts_S1x128_S5000x128) (ix2 p k) = affine f agg wl wr b p k := by
  show (matmul (F := Ideal) (φ₁ := .f32) (φ₂ := .f32) dot_S5000x128_S128x128_S5000x128_1_0_0_1_n_n none agg wl
          (constant (F := Ideal) S5000x128 .f32 0x00000000#32) (ix2 p k)
        + matmul (F := Ideal) (φ₁ := .f32) (φ₂ := .f32) dot_S5000x128_S128x128_S5000x128_1_0_0_1_n_n none f wr
          (constant (F := Ideal) S5000x128 .f32 0x00000000#32) (ix2 p k))
      + broadcastTo S5000x128 b broadcasts_S1x128_S5000x128 (ix2 p k) = _
  rw [PlainProduct.matmul_of_plain dot_S5000x128_S128x128_S5000x128_1_0_0_1_n_n rfl none agg wl p k,
    PlainProduct.matmul_of_plain dot_S5000x128_S128x128_S5000x128_1_0_0_1_n_n rfl none f wr p k,
    broadcastTo_1b_ab_apply]
  rfl

/-- Layer 1's block at row `p`, column `q`: the rectified sum of the two products and the bias. -/
theorem layer1_apply (x agg : FVec Ideal S5000x128 .f32) (wl wr : FVec Ideal S128x128 .f32) (b : FVec Ideal S1x128 .f32)
    (p : Fin 5000) (q : Fin 128) :
    Gen.k0_pay1 (F := Ideal) x agg wl wr b (ix2 p q) = max (affine x agg wl wr b p q) 0 := by
  unfold Gen.k0_pay1
  simp only [shapeCast_self]
  refine (congrArg (fun t => max t (Ideal.ofBits .f32 0x00000000#32)) (affine_apply x agg wl wr b p q)).trans ?_
  rw [Ideal.ofBits_zero_f32]

/-- Layer 2's block at row `p`, class `q`: the classifier applied to the hidden row `agg · wl + h · wr + b`. -/
theorem layer2_apply (h agg : FVec Ideal S5000x128 .f32) (wl wr : FVec Ideal S128x128 .f32) (b : FVec Ideal S1x128 .f32)
    (wc : FVec Ideal S128x16 .f32) (bc : FVec Ideal S1x16 .f32) (p : Fin 5000) (q : Fin 16) :
    Gen.k1_pay1 (F := Ideal) h agg wl wr b wc bc (ix2 p q)
      = (∑ k : Fin 128, affine h agg wl wr b p k * wc (ix2 k q)) + bc (ix2 (0 : Fin 1) q) := by
  unfold Gen.k1_pay1
  simp only [shapeCast_self]
  show matmul (F := Ideal) (φ₁ := .f32) (φ₂ := .f32) dot_S5000x128_S128x16_S5000x16_1_0_0_1_n_n none
        (addf (addf (matmul (F := Ideal) (φ₁ := .f32) (φ₂ := .f32) dot_S5000x128_S128x128_S5000x128_1_0_0_1_n_n none agg wl
              (constant (F := Ideal) S5000x128 .f32 0x00000000#32))
            (matmul (F := Ideal) (φ₁ := .f32) (φ₂ := .f32) dot_S5000x128_S128x128_S5000x128_1_0_0_1_n_n none h wr
              (constant (F := Ideal) S5000x128 .f32 0x00000000#32)))
          (broadcastTo S5000x128 b broadcasts_S1x128_S5000x128))
        wc (constant (F := Ideal) S5000x16 .f32 0x00000000#32) (ix2 p q)
      + broadcastTo S5000x16 bc broadcasts_S1x16_S5000x16 (ix2 p q) = _
  rw [PlainProduct.matmul_of_plain dot_S5000x128_S128x16_S5000x16_1_0_0_1_n_n rfl none _ wc p q, broadcastTo_1b_ab_apply]
  exact congrArg (· + bc (ix2 (0 : Fin 1) q)) (Finset.sum_congr rfl fun k _ =>
    congrArg (· * wc (ix2 k q)) (affine_apply h agg wl wr b p k))

end Cert.Sage.Payloads

end
-- ==== Proof.Region0.lean ====
/-
  Layer 1 as one function of whole arrays.

  The first kernel visits the 100000 nodes in 20 steps of 5000 rows. Step `t` reads rows `5000 t … 5000 t + 4999` of the
  features and of the neighbour means, all of both weight matrices and of the bias row, and writes the same rows of the
  result. So whatever arrays the kernel is entered with, the result array it leaves holds, at row `r` and column `q`,
  `max (agg · wl + x · wr + b) 0` of row `r`: each step writes its rows of that one function, and the steps' row ranges
  cover every row.
-/
import proofs.«177372_j37958920962738_1_alg».proof.Proof.Gen.KernelIdeal.Frame
import proofs.«177372_j37958920962738_1_alg».proof.Proof.Payloads

set_option maxRecDepth 16384

noncomputable section

open scoped BigOperators

namespace Cert.Sage.Region0

open Idealize.ShloMosaic Idealize.ShloMosaic.ValueIdx Idealize.ShloMosaic.TcCoe Idealize.ShloMosaic.Pipeline
open Cert.KernelIdeal Cert.KernelIdeal.Gen Cert.Sage.Payloads

variable (V : (c : Dev nD) → (b : Ref sig .tc) → Buf (Elt Ideal) ((c : Thread nD τ).loc b))

theorem origin : (![0, 0] : Fin 2 → Nat) = fun _ => 0 := funext fun a => by fin_cases a <;> rfl

/-- The layer on whole arrays: every row rectified after the two products and the bias. -/
def layer (x agg : FVec Ideal S100000x128 .f32) (wl wr : FVec Ideal S128x128 .f32) (b : FVec Ideal S1x128 .f32) :
    FVec Ideal S100000x128 .f32 :=
  fun i => max (affine x agg wl wr b (i 0) (i 1)) 0

/-- Where each window's block sits at step `t`: the row windows at block row `t`, the weights and the bias at their one
    block; decided over the 20 steps. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of step `t`'s block is row `5000 t + p` of the array. -/
def rowOf (t : Fin cfg0.N) (p : Fin 5000) : Fin 100000 :=
  ⟨t.val * 5000 + p.val, by have := t.isLt; have hN : cfg0.N = 20 := N_0; have := p.isLt; omega⟩

/-- The features' block at step `t` is those rows of the features. -/
theorem read_x (c : Dev nD) (t : Fin cfg0.N) (p : Fin 5000) (k : Fin 128) :
    iblk0 V c 0 t (ix2 p k) = V c main_arg0 (ix2 (rowOf t p) k) := by
  obtain ⟨e0, e1, -⟩ := blocks_at t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The neighbour means' block at step `t` is those rows of the means. -/
theorem read_agg (c : Dev nD) (t : Fin cfg0.N) (p : Fin 5000) (k : Fin 128) :
    iblk0 V c 1 t (ix2 p k) = V c main_v24 (ix2 (rowOf t p) k) := by
  obtain ⟨-, -, e0, e1, -⟩ := blocks_at t
  show V c main_v24 (((cfg0.win 1).blk t).view.emb (ix2 p k)) = V c main_v24 (ix2 (rowOf t p) k)
  refine congrArg (V c main_v24) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The left weight's block is the whole matrix at every step. -/
theorem read_wl (c : Dev nD) (t : Fin cfg0.N) : iblk0 V c 2 t = V c main_v25 := by
  obtain ⟨-, -, -, -, e0, e1, -⟩ := blocks_at t
  funext y
  show V c main_v25 (((cfg0.win 2).blk t).view.emb y) = V c main_v25 y
  refine congrArg (V c main_v25) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The right weight's block is the whole matrix at every step. -/
theorem read_wr (c : Dev nD) (t : Fin cfg0.N) : iblk0 V c 3 t = V c main_v26 := by
  obtain ⟨-, -, -, -, -, -, e0, e1, -⟩ := blocks_at t
  funext y
  show V c main_v26 (((cfg0.win 3).blk t).view.emb y) = V c main_v26 y
  refine congrArg (V c main_v26) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row's block is the whole row at every step. -/
theorem read_b (c : Dev nD) (t : Fin cfg0.N) : iblk0 V c 4 t = V c main_v27 := by
  obtain ⟨-, -, -, -, -, -, -, -, e0, e1, -⟩ := blocks_at t
  funext y
  show V c main_v27 (((cfg0.win 4).blk t).view.emb y) = V c main_v27 y
  refine congrArg (V c main_v27) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- An entry of the result's block at step `t` sits at the same row offset of the result array. -/
theorem emb_out (t : Fin cfg0.N) (p : Fin 5000) (q : Fin 128) :
    ((cfg0.win 5).blk t).view.emb (ix2 p q) = ix2 (rowOf t p) q := by
  obtain ⟨-, -, -, -, -, -, -, -, -, -, e0, e1⟩ := blocks_at t
  funext a; apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- WHAT STEP `t` WRITES BACK is its block of the layer of the arrays the kernel was entered with. -/
theorem flushed_eq (c : Dev nD) (t : Fin cfg0.N) :
    (dat0 (F := Ideal) V c).flushed 5 t = ((cfg0.win 5).blk t).view.read (Elt Ideal)
      (layer (V c main_arg0) (V c main_v24) (V c main_v25) (V c main_v26) (V c main_v27)) := by
  show (cfg0.win 5).cut (grid0.coords t) ((dat0 (F := Ideal) V c).after 5 t) = _
  rw [after0_5]
  unfold out0_5
  rw [View.canon_unit_zero origin]
  simp only [View.ld_unit_zero (S := S5000x128) origin, View.ld_unit_zero (S := S128x128) origin,
    View.ld_unit_zero (S := S1x128) origin]
  rw [read_wl V c t, read_wr V c t, read_b V c t]
  funext j
  obtain ⟨p, q, rfl⟩ : ∃ (p : Fin 5000) (q : Fin 128), j = ix2 p q := ⟨j 0, j 1, eq_ix2 j⟩
  refine (layer1_apply (iblk0 V c 0 t) (iblk0 V c 1 t) (V c main_v25) (V c main_v26) (V c main_v27) p q).trans ?_
  show _ = layer (V c main_arg0) (V c main_v24) (V c main_v25) (V c main_v26) (V c main_v27)
    (((cfg0.win 5).blk t).view.emb (ix2 p q))
  rw [emb_out t p q]
  exact congrArg (fun s => max s 0) (affine_rows (iblk0 V c 0 t) (iblk0 V c 1 t) (V c main_arg0) (V c main_v24)
    (V c main_v25) (V c main_v26) (V c main_v27) p (rowOf t p) (read_x V c t p) (read_agg V c t p) q)

/-- An index of the result array is in step `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Every row is in some step's block: row `r` in step `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, -, -, -, -, e0, e1⟩ := blocks_at t
  have ht : t.val = (i 0).val / 5000 := rfl
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the kernel: the layer of the arrays it was entered with. -/
theorem final (c : Dev nD) :
    (dat0 (F := Ideal) V c).arrAt 5 cfg0.N
      = layer (V c main_arg0) (V c main_v24) (V c main_v25) (V c main_v26) (V c main_v27) :=
  (dat0 (F := Ideal) V c).arrAt_eq_of_cover 5 _ (fun t _ => flushed_eq V c t) cover

end Cert.Sage.Region0

end
-- ==== Proof.Region1.lean ====
/-
  Layer 2 and the classifier as one function of whole arrays.

  The second kernel visits the 100000 nodes in 20 steps of 5000 rows. Step `t` reads rows `5000 t … 5000 t + 4999` of the
  hidden features `h` and of their neighbour means, all of the two weight matrices, of the bias row, of the classifier
  matrix and of its bias row, and writes the same rows of the 16 class scores. So whatever arrays the kernel is entered
  with, the scores it leaves are, at node `r` and class `q`, the sum over the 128 hidden columns `k` of
  `(agg · wl + h · wr + b) (r, k) · wc (k, q)`, plus `bc q`.
-/
import proofs.«177372_j37958920962738_1_alg».proof.Proof.Gen.KernelIdeal.Frame
import proofs.«177372_j37958920962738_1_alg».proof.Proof.Payloads

set_option maxRecDepth 16384

noncomputable section

open scoped BigOperators

namespace Cert.Sage.Region1

open Idealize.ShloMosaic Idealize.ShloMosaic.ValueIdx Idealize.ShloMosaic.TcCoe Idealize.ShloMosaic.Pipeline
open Cert.KernelIdeal Cert.KernelIdeal.Gen Cert.Sage.Payloads

variable (V : (c : Dev nD) → (b : Ref sig .tc) → Buf (Elt Ideal) ((c : Thread nD τ).loc b))

theorem origin : (![0, 0] : Fin 2 → Nat) = fun _ => 0 := funext fun a => by fin_cases a <;> rfl

/-- The class scores on whole arrays. -/
def scores (h agg : FVec Ideal S100000x128 .f32) (wl wr : FVec Ideal S128x128 .f32) (b : FVec Ideal S1x128 .f32)
    (wc : FVec Ideal S128x16 .f32) (bc : FVec Ideal S1x16 .f32) : FVec Ideal S100000x16 .f32 :=
  fun i => (∑ k : Fin 128, affine h agg wl wr b (i 0) k * wc (ix2 k (i 1))) + bc (ix2 (0 : Fin 1) (i 1))

/-- Where each window's block sits at step `t`: the row windows at block row `t`, every other operand at its one
    block; decided over the 20 steps. -/
theorem blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of step `t`'s block is row `5000 t + p` of the array. -/
def rowOf (t : Fin cfg1.N) (p : Fin 5000) : Fin 100000 :=
  ⟨t.val * 5000 + p.val, by have := t.isLt; have hN : cfg1.N = 20 := N_1; have := p.isLt; omega⟩

/-- The hidden features' block at step `t` is those rows of the hidden features. -/
theorem read_h (c : Dev nD) (t : Fin cfg1.N) (p : Fin 5000) (k : Fin 128) :
    iblk1 V c 0 t (ix2 p k) = V c main_v28 (ix2 (rowOf t p) k) := by
  obtain ⟨e0, e1, -⟩ := blocks_at t
  show V c main_v28 (((cfg1.win 0).blk t).view.emb (ix2 p k)) = V c main_v28 (ix2 (rowOf t p) k)
  refine congrArg (V c main_v28) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The neighbour means' block at step `t` is those rows of the means. -/
theorem read_agg (c : Dev nD) (t : Fin cfg1.N) (p : Fin 5000) (k : Fin 128) :
    iblk1 V c 1 t (ix2 p k) = V c main_v40 (ix2 (rowOf t p) k) := by
  obtain ⟨-, -, e0, e1, -⟩ := blocks_at t
  show V c main_v40 (((cfg1.win 1).blk t).view.emb (ix2 p k)) = V c main_v40 (ix2 (rowOf t p) k)
  refine congrArg (V c main_v40) (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

/-- The left weight's block is the whole matrix at every step. -/
theorem read_wl (c : Dev nD) (t : Fin cfg1.N) : iblk1 V c 2 t = V c main_v41 := by
  obtain ⟨-, -, -, -, e0, e1, -⟩ := blocks_at t
  funext y
  show V c main_v41 (((cfg1.win 2).blk t).view.emb y) = V c main_v41 y
  refine congrArg (V c main_v41) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The right weight's block is the whole matrix at every step. -/
theorem read_wr (c : Dev nD) (t : Fin cfg1.N) : iblk1 V c 3 t = V c main_v42 := by
  obtain ⟨-, -, -, -, -, -, e0, e1, -⟩ := blocks_at t
  funext y
  show V c main_v42 (((cfg1.win 3).blk t).view.emb y) = V c main_v42 y
  refine congrArg (V c main_v42) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row's block is the whole row at every step. -/
theorem read_b (c : Dev nD) (t : Fin cfg1.N) : iblk1 V c 4 t = V c main_v44 := by
  obtain ⟨-, -, -, -, -, -, -, -, e0, e1, -⟩ := blocks_at t
  funext y
  show V c main_v44 (((cfg1.win 4).blk t).view.emb y) = V c main_v44 y
  refine congrArg (V c main_v44) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The classifier matrix's block is the whole matrix at every step. -/
theorem read_wc (c : Dev nD) (t : Fin cfg1.N) : iblk1 V c 5 t = V c main_v43 := by
  obtain ⟨-, -, -, -, -, -, -, -, -, -, e0, e1, -⟩ := blocks_at t
  funext y
  show V c main_v43 (((cfg1.win 5).blk t).view.emb y) = V c main_v43 y
  refine congrArg (V c main_v43) (funext fun a => Fin.ext ?_)
  match a with
  | ⟨0, _⟩ => show win1_5.index t (0 : Fin 2) * 128 + 1 * (y 0).val = (y 0).val; rw [e0]; omega
  | ⟨1, _⟩ => show win1_5.index t (1 : Fin 2) * 16 + 1 * (y 1).val = (y 1).val; rw [e1]; omega

/-- The classifier bias row's block is the whole row at every step. -/
theorem read_bc (c : Dev nD) (t : Fin cfg1.N) : iblk1 V c 6 t = V c main_v45 := by
  obtain ⟨-, -, -, -, -, -, -, -, -, -, -, -, e0, e1, -⟩ := blocks_at t
  funext y
  show V c main_v45 (((cfg1.win 6).blk t).view.emb y) = V c main_v45 y
  refine congrArg (V c main_v45) (funext fun a => Fin.ext ?_)
  match a with
  | ⟨0, _⟩ => show win1_6.index t (0 : Fin 2) * 1 + 1 * (y 0).val = (y 0).val; rw [e0]; omega
  | ⟨1, _⟩ => show win1_6.index t (1 : Fin 2) * 16 + 1 * (y 1).val = (y 1).val; rw [e1]; omega

/-- An entry of the scores' block at step `t` sits at the same row offset of the scores array. -/
theorem emb_out (t : Fin cfg1.N) (p : Fin 5000) (q : Fin 16) :
    ((cfg1.win 7).blk t).view.emb (ix2 p q) = ix2 (rowOf t p) q := by
  obtain ⟨-, -, -, -, -, -, -, -, -, -, -, -, -, -, e0, e1⟩ := blocks_at t
  funext a; apply Fin.ext
  match a with
  | ⟨0, _⟩ => show win1_7.index t (0 : Fin 2) * 5000 + 1 * p.val = t.val * 5000 + p.val; rw [e0]; omega
  | ⟨1, _⟩ => show win1_7.index t (1 : Fin 2) * 16 + 1 * q.val = q.val; rw [e1]; omega

/-- WHAT STEP `t` WRITES BACK is its block of the scores of the arrays the kernel was entered with. -/
theorem flushed_eq (c : Dev nD) (t : Fin cfg1.N) :
    (dat1 (F := Ideal) V c).flushed 7 t = ((cfg1.win 7).blk t).view.read (Elt Ideal)
      (scores (V c main_v28) (V c main_v40) (V c main_v41) (V c main_v42) (V c main_v44) (V c main_v43) (V c main_v45)) := by
  show (cfg1.win 7).cut (grid1.coords t) ((dat1 (F := Ideal) V c).after 7 t) = _
  rw [after1_7]
  unfold out1_7
  rw [View.canon_unit_zero origin]
  simp only [View.ld_unit_zero (S := S5000x128) origin, View.ld_unit_zero (S := S128x128) origin,
    View.ld_unit_zero (S := S1x128) origin, View.ld_unit_zero (S := S128x16) origin, View.ld_unit_zero (S := S1x16) origin]
  rw [read_wl V c t, read_wr V c t, read_b V c t, read_wc V c t, read_bc V c t]
  funext j
  obtain ⟨p, q, rfl⟩ : ∃ (p : Fin 5000) (q : Fin 16), j = ix2 p q := ⟨j 0, j 1, eq_ix2 j⟩
  refine (layer2_apply (iblk1 V c 0 t) (iblk1 V c 1 t) (V c main_v41) (V c main_v42) (V c main_v44) (V c main_v43)
    (V c main_v45) p q).trans ?_
  show _ = scores (V c main_v28) (V c main_v40) (V c main_v41) (V c main_v42) (V c main_v44) (V c main_v43) (V c main_v45)
    (((cfg1.win 7).blk t).view.emb (ix2 p q))
  rw [emb_out t p q]
  exact congrArg (· + V c main_v45 (ix2 (0 : Fin 1) q)) (Finset.sum_congr rfl fun k _ =>
    congrArg (· * V c main_v43 (ix2 k q)) (affine_rows (iblk1 V c 0 t) (iblk1 V c 1 t) (V c main_v28) (V c main_v40)
      (V c main_v41) (V c main_v42) (V c main_v44) p (rowOf t p) (read_h V c t p) (read_agg V c t p) k))

/-- An index of the scores array is in step `t`'s block iff each coordinate is in the block's range on its axis. -/
theorem mem_blk (t : Fin cfg1.N) (i : S100000x16.Idx) :
    i ∈ ((cfg1.win 7).blk t).view.set ↔ ∀ a : Fin 2, win1_7.index t a * S5000x16.size a ≤ (i a).val
      ∧ (i a).val < win1_7.index t a * S5000x16.size a + S5000x16.size a := by
  show i ∈ ((View.whole main_v46).slice (win1_7.rect t)).set ↔ _
  rw [View.set_slice_whole, Rect.mem_set_unit]
  exact Iff.rfl

/-- Every row is in some step's block: row `r` in step `r / 5000`. -/
theorem cover (i : S100000x16.Idx) :
    ∃ t : Fin cfg1.N, (cfg1.win 7).flush t = true ∧ i ∈ ((cfg1.win 7).blk t).view.set := by
  have hi0 : (i 0).val < 100000 := (i 0).isLt
  have hi1 : (i 1).val < 16 := (i 1).isLt
  have hN : cfg1.N = 20 := N_1
  let t : Fin cfg1.N := ⟨(i 0).val / 5000, by omega⟩
  obtain ⟨-, -, -, -, -, -, -, -, -, -, -, -, -, -, e0, e1⟩ := blocks_at t
  have ht : t.val = (i 0).val / 5000 := rfl
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 16 ≤ (i 1).val ∧ (i 1).val < win1_7.index t (1 : Fin 2) * 16 + 16
    rw [e1]; omega

/-- THE SCORES ARRAY after the kernel: the scores of the arrays it was entered with. -/
theorem final (c : Dev nD) :
    (dat1 (F := Ideal) V c).arrAt 7 cfg1.N
      = scores (V c main_v28) (V c main_v40) (V c main_v41) (V c main_v42) (V c main_v44) (V c main_v43) (V c main_v45) :=
  (dat1 (F := Ideal) V c).arrAt_eq_of_cover 7 _ (fun t _ => flushed_eq V c t) cover

end Cert.Sage.Region1

end
-- ==== Proof.KernelHost.lean ====
/-
  The kernel program's host side: what the arrays hold at each boundary, as functions of the launch arrays.

  From the edge list the host takes the source row and the destination row, counts each node's in-degree by a
  scatter of ones, floors it at one and takes its reciprocal (`invDeg`); a feature matrix is averaged over the
  in-neighbours by gathering the source rows, scatter-adding them at the destinations and multiplying by `invDeg`
  (`mean`). Before the first kernel the host has the means of `x`, the two transposed weights and the bias as a row;
  the first kernel leaves the hidden features; before the second kernel the host averages THOSE the same way and lays
  out the second layer's weights, the classifier matrix transposed and the two bias rows. Reading the fold of these
  stretches at one buffer is bookkeeping: each operation's result at its own buffer, every other buffer untouched.
-/
import proofs.«177372_j37958920962738_1_alg».proof.Proof.Gen.KernelIdeal.Frame
import proofs.«177372_j37958920962738_1_alg».proof.Proof.Region0
import proofs.«177372_j37958920962738_1_alg».proof.Proof.Region1

set_option maxRecDepth 16384

noncomputable section

namespace Cert.Sage.KernelHost

open Idealize.ShloMosaic Idealize.ShloMosaic.TcCoe Idealize.SL.Sem Idealize.ShloMosaic.StableHlo
open Cert.KernelIdeal Cert.KernelIdeal.Gen

/-! ## The host's functions of the edge list -/

/-- The edges' source nodes: row 0 of the edge list. -/
def srcs (e : IVec S2x1600000 32) : IVec S1600000 32 :=
  shapeCast _ (extractStridedSlice S1x1600000 ![0, 0] e slices_S2x1600000_S1x1600000_0_0) shapeCasts_S1x1600000_S1600000

/-- The edges' destination nodes: row 1 of the edge list. -/
def dsts (e : IVec S2x1600000 32) : IVec S1600000 32 :=
  shapeCast _ (extractStridedSlice S1x1600000 ![1, 0] e slices_S2x1600000_S1x1600000_1_0) shapeCasts_S1x1600000_S1600000

/-- Each node's in-degree, counted by scattering a one per edge at its destination. -/
def degree (e : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dsts e))
    (broadcastInDim S1600000 ![] bcast_S_S1600000 (constant (F := Ideal) S_ .f32 0x3F800000#32))

/-- The reciprocal of the in-degree floored at one, as a column. -/
def invDeg (e : IVec S2x1600000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf (degree e) (broadcastInDim S100000 ![] bcast_S_S100000 (constant (F := Ideal) S_ .f32 0x3F800000#32))))

/-- The sum of a feature matrix over each node's in-neighbours: the source rows gathered (a negative source counted
    from the end), then scatter-added at the destinations. -/
def nbrSum (e : IVec S2x1600000 32) (feat : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dsts e))
    (Host.gather gather_S100000x128_S1600000x1_S1600000x128_1_0_n_n_0_1_1128 feat
      (broadcastInDim S1600000x1 ![0] bcast_S1600000_S1600000x1_0
        (select (cmpi .slt (srcs e) (broadcastInDim S1600000 ![] bcast_S_S1600000 (constantI S_ 32 0#32)))
          (addi (srcs e) (broadcastInDim S1600000 ![] bcast_S_S1600000 (constantI S_ 32 100000#32))) (srcs e))))

/-- The mean over the in-neighbours as the kernel program takes it: the sum times the reciprocal floored degree. -/
def mean (e : IVec S2x1600000 32) (feat : FVec Ideal S100000x128 .f32) : FVec Ideal S100000x128 .f32 :=
  mulf (nbrSum e feat) (broadcastInDim S100000x128 ![0, 1] bcast_S100000x1_S100000x128_0_1 (invDeg e))

/-- The hidden features: layer 1 of the launch arrays. -/
def hidden (x : FVec Ideal S100000x128 .f32) (e : IVec S2x1600000 32) (w1l : FVec Ideal S128x128 .f32)
    (b1l : FVec Ideal S128 .f32) (w1r : FVec Ideal S128x128 .f32) : FVec Ideal S100000x128 .f32 :=
  Region0.layer x (mean e x) (transpose S128x128 [1, 0] w1l transposes_S128x128_S128x128_1_0)
    (transpose S128x128 [1, 0] w1r transposes_S128x128_S128x128_1_0) (shapeCast _ b1l shapeCasts_S128_S1x128)

/-- The kernel program's result as one function of the launch arrays. -/
def result (x : FVec Ideal S100000x128 .f32) (e : IVec S2x1600000 32) (w1l : FVec Ideal S128x128 .f32)
    (b1l : FVec Ideal S128 .f32) (w1r w2l : FVec Ideal S128x128 .f32) (b2l : FVec Ideal S128 .f32)
    (w2r : FVec Ideal S128x128 .f32) (wc : FVec Ideal S16x128 .f32) (bc : FVec Ideal S16 .f32) :
    FVec Ideal S100000x16 .f32 :=
  Region1.scores (hidden x e w1l b1l w1r) (mean e (hidden x e w1l b1l w1r))
    (transpose S128x128 [1, 0] w2l transposes_S128x128_S128x128_1_0)
    (transpose S128x128 [1, 0] w2r transposes_S128x128_S128x128_1_0) (shapeCast _ b2l shapeCasts_S128_S1x128)
    (transpose S128x16 [1, 0] wc transposes_S16x128_S128x16_1_0) (shapeCast _ bc shapeCasts_S16_S1x16)

variable (m : (ℓ : Loc nD τ sig) → Buf (Elt Ideal) ℓ) (ρ : Dev nD → PrngReg) (c : Dev nD)

/-! ## Before the first kernel -/

theorem W1_arg0 : W1 m ρ c (Proc.devRef .tc main_arg0) = m ((c.tc : Thread nD τ).loc main_arg0) := by
  dsimp only [W1, hostOps0]; after_results_simp <;> rfl
theorem W1_arg5 : W1 m ρ c (Proc.devRef .tc main_arg5) = m ((c.tc : Thread nD τ).loc main_arg5) := by
  dsimp only [W1, hostOps0]; after_results_simp <;> rfl
theorem W1_arg6 : W1 m ρ c (Proc.devRef .tc main_arg6) = m ((c.tc : Thread nD τ).loc main_arg6) := by
  dsimp only [W1, hostOps0]; after_results_simp <;> rfl
theorem W1_arg7 : W1 m ρ c (Proc.devRef .tc main_arg7) = m ((c.tc : Thread nD τ).loc main_arg7) := by
  dsimp only [W1, hostOps0]; after_results_simp <;> rfl
theorem W1_arg8 : W1 m ρ c (Proc.devRef .tc main_arg8) = m ((c.tc : Thread nD τ).loc main_arg8) := by
  dsimp only [W1, hostOps0]; after_results_simp <;> rfl
theorem W1_arg9 : W1 m ρ c (Proc.devRef .tc main_arg9) = m ((c.tc : Thread nD τ).loc main_arg9) := by
  dsimp only [W1, hostOps0]; after_results_simp <;> rfl

theorem W1_v1 : W1 m ρ c (Proc.devRef .tc main_v1) = srcs (m ((c.tc : Thread nD τ).loc main_arg1)) := by
  dsimp only [W1, hostOps0]; after_results_simp <;> rfl
theorem W1_v3 : W1 m ρ c (Proc.devRef .tc main_v3) = dsts (m ((c.tc : Thread nD τ).loc main_arg1)) := by
  dsimp only [W1, hostOps0]; after_results_simp <;> rfl
theorem W1_v12 : W1 m ρ c (Proc.devRef .tc main_v12) = invDeg (m ((c.tc : Thread nD τ).loc main_arg1)) := by
  dsimp only [W1, hostOps0]; after_results_simp <;> rfl
theorem W1_v24 : W1 m ρ c (Proc.devRef .tc main_v24)
    = mean (m ((c.tc : Thread nD τ).loc main_arg1)) (m ((c.tc : Thread nD τ).loc main_arg0)) := by
  dsimp only [W1, hostOps0]; after_results_simp <;> rfl
theorem W1_v25 : W1 m ρ c (Proc.devRef .tc main_v25)
    = transpose S128x128 [1, 0] (m ((c.tc : Thread nD τ).loc main_arg2)) transposes_S128x128_S128x128_1_0 := by
  dsimp only [W1, hostOps0]; after_results_simp <;> rfl
theorem W1_v26 : W1 m ρ c (Proc.devRef .tc main_v26)
    = transpose S128x128 [1, 0] (m ((c.tc : Thread nD τ).loc main_arg4)) transposes_S128x128_S128x128_1_0 := by
  dsimp only [W1, hostOps0]; after_results_simp <;> rfl
theorem W1_v27 : W1 m ρ c (Proc.devRef .tc main_v27)
    = shapeCast _ (m ((c.tc : Thread nD τ).loc main_arg3)) shapeCasts_S128_S1x128 := by
  dsimp only [W1, hostOps0]; after_results_simp <;> rfl

/-! ## After the first kernel -/

/-- The first kernel leaves the hidden features in its result array. -/
theorem W2_v28 : W2 m ρ c (Proc.devRef .tc main_v28)
    = hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 5).trans ((Region0.final (V1 m ρ) c).trans ?_)
  show Region0.layer (W1 m ρ c (Proc.devRef .tc main_arg0)) (W1 m ρ c (Proc.devRef .tc main_v24))
    (W1 m ρ c (Proc.devRef .tc main_v25)) (W1 m ρ c (Proc.devRef .tc main_v26)) (W1 m ρ c (Proc.devRef .tc main_v27)) = _
  rw [W1_arg0, W1_v24, W1_v25, W1_v26, W1_v27]
  rfl

theorem W2_v1 : W2 m ρ c (Proc.devRef .tc main_v1) = srcs (m ((c.tc : Thread nD τ).loc main_arg1)) :=
  (W2_of_ne m ρ c main_v1 (by decide)).trans (W1_v1 m ρ c)
theorem W2_v3 : W2 m ρ c (Proc.devRef .tc main_v3) = dsts (m ((c.tc : Thread nD τ).loc main_arg1)) :=
  (W2_of_ne m ρ c main_v3 (by decide)).trans (W1_v3 m ρ c)
theorem W2_v12 : W2 m ρ c (Proc.devRef .tc main_v12) = invDeg (m ((c.tc : Thread nD τ).loc main_arg1)) :=
  (W2_of_ne m ρ c main_v12 (by decide)).trans (W1_v12 m ρ c)
theorem W2_arg5 : W2 m ρ c (Proc.devRef .tc main_arg5) = m ((c.tc : Thread nD τ).loc main_arg5) :=
  (W2_of_ne m ρ c main_arg5 (by decide)).trans (W1_arg5 m ρ c)
theorem W2_arg6 : W2 m ρ c (Proc.devRef .tc main_arg6) = m ((c.tc : Thread nD τ).loc main_arg6) :=
  (W2_of_ne m ρ c main_arg6 (by decide)).trans (W1_arg6 m ρ c)
theorem W2_arg7 : W2 m ρ c (Proc.devRef .tc main_arg7) = m ((c.tc : Thread nD τ).loc main_arg7) :=
  (W2_of_ne m ρ c main_arg7 (by decide)).trans (W1_arg7 m ρ c)
theorem W2_arg8 : W2 m ρ c (Proc.devRef .tc main_arg8) = m ((c.tc : Thread nD τ).loc main_arg8) :=
  (W2_of_ne m ρ c main_arg8 (by decide)).trans (W1_arg8 m ρ c)
theorem W2_arg9 : W2 m ρ c (Proc.devRef .tc main_arg9) = m ((c.tc : Thread nD τ).loc main_arg9) :=
  (W2_of_ne m ρ c main_arg9 (by decide)).trans (W1_arg9 m ρ c)

/-! ## Before the second kernel -/

theorem W3_v28 : W3 m ρ c (Proc.devRef .tc main_v28) = W2 m ρ c (Proc.devRef .tc main_v28) := by
  dsimp only [W3, hostOps1]; after_results_simp <;> rfl
theorem W3_v40 : W3 m ρ c (Proc.devRef .tc main_v40)
    = mean (m ((c.tc : Thread nD τ).loc main_arg1)) (W2 m ρ c (Proc.devRef .tc main_v28)) := by
  dsimp only [W3, hostOps1]; after_results_simp
  rw [W2_v1, W2_v3, W2_v12]
  rfl
theorem W3_v41 : W3 m ρ c (Proc.devRef .tc main_v41)
    = transpose S128x128 [1, 0] (m ((c.tc : Thread nD τ).loc main_arg5)) transposes_S128x128_S128x128_1_0 := by
  dsimp only [W3, hostOps1]; after_results_simp
  rw [W2_arg5]
theorem W3_v42 : W3 m ρ c (Proc.devRef .tc main_v42)
    = transpose S128x128 [1, 0] (m ((c.tc : Thread nD τ).loc main_arg7)) transposes_S128x128_S128x128_1_0 := by
  dsimp only [W3, hostOps1]; after_results_simp
  rw [W2_arg7]
theorem W3_v43 : W3 m ρ c (Proc.devRef .tc main_v43)
    = transpose S128x16 [1, 0] (m ((c.tc : Thread nD τ).loc main_arg8)) transposes_S16x128_S128x16_1_0 := by
  dsimp only [W3, hostOps1]; after_results_simp
  rw [W2_arg8]
theorem W3_v44 : W3 m ρ c (Proc.devRef .tc main_v44)
    = shapeCast _ (m ((c.tc : Thread nD τ).loc main_arg6)) shapeCasts_S128_S1x128 := by
  dsimp only [W3, hostOps1]; after_results_simp
  rw [W2_arg6]
  rfl
theorem W3_v45 : W3 m ρ c (Proc.devRef .tc main_v45)
    = shapeCast _ (m ((c.tc : Thread nD τ).loc main_arg9)) shapeCasts_S16_S1x16 := by
  dsimp only [W3, hostOps1]; after_results_simp
  rw [W2_arg9]
  rfl

/-! ## After the second kernel -/

/-- THE RESULT BUFFER at the last boundary: the kernel program's result function of the launch arrays. -/
theorem W4_v46 : W4 m ρ c (Proc.devRef .tc main_v46)
    = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  refine (W4_arr m ρ c 7).trans ((Region1.final (V3 m ρ) c).trans ?_)
  show Region1.scores (W3 m ρ c (Proc.devRef .tc main_v28)) (W3 m ρ c (Proc.devRef .tc main_v40))
    (W3 m ρ c (Proc.devRef .tc main_v41)) (W3 m ρ c (Proc.devRef .tc main_v42)) (W3 m ρ c (Proc.devRef .tc main_v44))
    (W3 m ρ c (Proc.devRef .tc main_v43)) (W3 m ρ c (Proc.devRef .tc main_v45)) = _
  rw [W3_v40, W3_v28, W3_v41, W3_v42, W3_v43, W3_v44, W3_v45, W2_v28]
  rfl

end Cert.Sage.KernelHost

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibFlooredMean.lean ====
/-
  A mean by a count floored at one, taken by division or by the reciprocal: two pointwise laws over the extended reals,
  and the first of them on whole arrays.

  The mean over a node's in-neighbours divides a sum by the in-degree floored at one. One side divides by the floored
  degree, the other multiplies by its reciprocal. The floored degree is at least one, hence not zero, and the quotient
  of extended reals by a nonzero divisor IS the product with the divisor's inverse; so the two agree for every value of
  the sum and of the degree, infinite ones included. The other law is the order of the three summands of a layer:
  addition of extended reals is commutative and associative.
-/
import Idealize.ShloMosaic.PureOps.Ideal
import Idealize.ShloMosaic.PureOps.Ideal.Laws
import Idealize.ShloMosaic.Lib.IdealHost
import proofs.«177372_j37958920962738_1_alg».proof.Proof.LibHostRowForms

noncomputable section

namespace Cert.FlooredMean

open Idealize.ShloMosaic

/-- A divisor floored at one is not zero. -/
theorem floor_one_ne_zero (a : EReal) : max a 1 ≠ 0 :=
  (lt_of_lt_of_le zero_lt_one (le_max_right a 1)).ne'

/-- Dividing by a degree floored at one is multiplying by the reciprocal of that floored degree. -/
theorem div_floor_one (s a : EReal) : Ideal.div s (max a 1) = s * Ideal.div 1 (max a 1) := by
  have h : max a 1 ≠ 0 := floor_one_ne_zero a
  simp only [Ideal.div, if_neg h, one_mul]

/-- The same law with the float word of one where the programs print it. -/
theorem div_floor_one_word (s a : EReal) :
    Ideal.div s (max a (Ideal.ofBits .f32 0x3F800000#32))
      = s * Ideal.div (Ideal.ofBits .f32 0x3F800000#32) (max a (Ideal.ofBits .f32 0x3F800000#32)) := by
  rw [Ideal.ofBits_one_f32]
  exact div_floor_one s a

/-- A layer's three summands in either order. -/
theorem add_bias_last (a b c : EReal) : a + c + b = a + b + c := add_right_comm a c b

open Idealize.ShloMosaic.ValueIdx Cert.HostRowForms

/-- The law on whole arrays: a matrix of neighbour sums `[n, d]` divided by the floored degree of its row (the degree
    vector `[n]` floored at one, laid out as a column and copied along the row) is the matrix times the reciprocal of
    the floored degree laid out the same way. -/
theorem mean_forms {n d : ℕ} (S : FVec Ideal ⟨2, ![n, d]⟩ .f32) (cnt : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, d]⟩ ![0, 1]) :
    Host.divf S (broadcastInDim ⟨2, ![n, d]⟩ ![0, 1] h2 (broadcastInDim ⟨2, ![n, 1]⟩ ![0] h1
        (maximumf cnt (broadcastInDim ⟨1, ![n]⟩ ![] h0 (constant (F := Ideal) ⟨0, ![]⟩ .f32 0x3F800000#32)))))
      = mulf S (broadcastInDim ⟨2, ![n, d]⟩ ![0, 1] h2 (broadcastInDim ⟨2, ![n, 1]⟩ ![0] h1
        (Host.divf (broadcastInDim ⟨1, ![n]⟩ ![] h0 (constant (F := Ideal) ⟨0, ![]⟩ .f32 0x3F800000#32))
          (maximumf cnt (broadcastInDim ⟨1, ![n]⟩ ![] h0 (constant (F := Ideal) ⟨0, ![]⟩ .f32 0x3F800000#32)))))) := by
  funext i
  obtain ⟨p, q, rfl⟩ : ∃ (p : Fin n) (q : Fin d), i = ix2 p q := ⟨i 0, i 1, eq_ix2 i⟩
  show Ideal.div (S (ix2 p q)) (broadcastInDim (s := ⟨2, ![n, 1]⟩) ⟨2, ![n, d]⟩ ![0, 1] h2 _ (ix2 p q))
    = S (ix2 p q) * broadcastInDim (s := ⟨2, ![n, 1]⟩) ⟨2, ![n, d]⟩ ![0, 1] h2 _ (ix2 p q)
  rw [bcast_a1_ab_apply _ _ rfl, bcast_a1_ab_apply _ _ rfl, bcast_a_a1_apply _ _ rfl, bcast_a_a1_apply _ _ rfl]
  exact div_floor_one_word (S (ix2 p q)) (cnt (ix1 p))

end Cert.FlooredMean

end
-- ==== Proof.RefSide.lean ====
/-
  The reference's result is the kernel program's result function of the same arrays.

  The reference averages over the in-neighbours by DIVIDING the neighbour sum by the in-degree floored at one, and adds a
  layer's summands in the order (neighbour term + bias) + own term; the kernel program MULTIPLIES by the reciprocal of
  the floored degree and adds (neighbour term + own term) + bias. The first difference is the law of the floored
  divisor (it is at least one, so not zero, and a quotient by a nonzero extended real is the product with its inverse);
  the second is commutativity and associativity of addition. Everything else — the gather of source rows, the
  scatter-add at destinations, the products with the transposed weights, the rectifier, the classifier — is the same
  operation of the same arrays on both sides. No entry needs to be finite.
-/
import proofs.«177372_j37958920962738_1_alg».proof.Proof.Gen.ReferenceIdeal.Read
import proofs.«177372_j37958920962738_1_alg».proof.Proof.KernelHost
import proofs.«177372_j37958920962738_1_alg».proof.Proof.LibFlooredMean
import proofs.«177372_j37958920962738_1_alg».proof.Proof.LibPlainProduct
import proofs.«177372_j37958920962738_1_alg».proof.Proof.LibHostRowForms
import Idealize.ShloMosaic.Lib.ValueLayout

set_option maxRecDepth 16384

noncomputable section

open scoped BigOperators

namespace Cert.Sage.RefSide

open Idealize.ShloMosaic Idealize.ShloMosaic.ValueIdx Idealize.ShloMosaic.PlainProduct Cert.HostRowForms
open Cert.ReferenceIdeal Cert.ReferenceIdeal.Read Cert.ReferenceIdeal.Facts₀ Cert.ReferenceIdeal.Facts
open Cert.Sage.Payloads Cert.FlooredMean

/-- One entry of a layer before the rectifier, as the reference computes it — (neighbour term + bias) + own term, the
    bias a vector copied along the rows — is the kernel's row function with the bias laid out as one row. -/
theorem ref_affine (f agg : FVec Ideal S100000x128 .f32) (wl wr : FVec Ideal S128x128 .f32) (b : FVec Ideal S128 .f32)
    (hb : S128.ShapeCasts ⟨2, ![1, 128]⟩) (p : Fin 100000) (k : Fin 128) :
    addf (addf (Host.dotGeneral (F := Ideal) (φ₁ := .f32) (φ₂ := .f32) dot_S100000x128_S128x128_S100000x128_1_0_0_1_n_n none agg wl)
        (broadcastInDim S100000x128 ![0, 1] bcast_S1x128_S100000x128_0_1 (broadcastInDim S1x128 ![1] bcast_S128_S1x128_1 b)))
      (Host.dotGeneral (F := Ideal) (φ₁ := .f32) (φ₂ := .f32) dot_S100000x128_S128x128_S100000x128_1_0_0_1_n_n none f wr) (ix2 p k)
    = affine f agg wl wr (shapeCast _ b hb) p k := by
  show (Host.dotGeneral (F := Ideal) (φ₁ := .f32) (φ₂ := .f32) dot_S100000x128_S128x128_S100000x128_1_0_0_1_n_n none agg wl (ix2 p k)
      + broadcastInDim (s := S1x128) S100000x128 ![0, 1] bcast_S1x128_S100000x128_0_1
          (broadcastInDim (s := S128) S1x128 ![1] bcast_S128_S1x128_1 b) (ix2 p k))
    + Host.dotGeneral (F := Ideal) (φ₁ := .f32) (φ₂ := .f32) dot_S100000x128_S128x128_S100000x128_1_0_0_1_n_n none f wr (ix2 p k) = _
  rw [dotGeneral_of_plain dot_S100000x128_S128x128_S100000x128_1_0_0_1_n_n rfl none agg wl p k,
    dotGeneral_of_plain dot_S100000x128_S128x128_S100000x128_1_0_0_1_n_n rfl none f wr p k,
    bcast_1b_ab_apply _ _ rfl, bcast_b_1b_apply _ _ rfl]
  unfold affine
  rw [shapeCast_a_1a_apply, add_bias_last]

/-- The reference's first mean over the in-neighbours is the kernel program's. -/
theorem mean1 (x0 : FVec Ideal S100000x128 .f32) (x1 : IVec S2x1600000 32) :
    val_main_v22 (F := Ideal) x0 x1 = KernelHost.mean x1 x0 := by
  unfold val_main_v22 val_main_v21 val_main_v20 val_main_v19 val_main_v18 val_main_cst_3
  exact (mean_forms _ _ _ _ _).trans rfl

/-- The reference's hidden features are the kernel program's. -/
theorem hidden_eq (x0 : FVec Ideal S100000x128 .f32) (x1 : IVec S2x1600000 32) (x2 : FVec Ideal S128x128 .f32)
    (x3 : FVec Ideal S128 .f32) (x4 : FVec Ideal S128x128 .f32) :
    val_main_v31 (F := Ideal) x0 x1 x2 x3 x4 = KernelHost.hidden x0 x1 x2 x3 x4 := by
  funext i
  obtain ⟨p, q, rfl⟩ : ∃ (p : Fin 100000) (q : Fin 128), i = ix2 p q := ⟨i 0, i 1, eq_ix2 i⟩
  unfold val_main_v31 val_main_v30 val_main_v27 val_main_v24 val_main_v29 val_main_v26 val_main_v25 val_main_v23
    val_main_v28 val_main_call0_v0 val_main_call0_cst
  rw [mean1]
  unfold KernelHost.hidden Region0.layer
  have ha := ref_affine x0 (KernelHost.mean x1 x0) (transpose S128x128 [1, 0] x2 transposes_S128x128_S128x128_1_0)
    (transpose S128x128 [1, 0] x4 transposes_S128x128_S128x128_1_0) x3 Cert.KernelIdeal.Gen.shapeCasts_S128_S1x128 p q
  have hz : broadcastInDim S100000x128 ![] bcast_S_S100000x128 (constant (F := Ideal) S_ .f32 0x00000000#32) (ix2 p q) = 0 :=
    (bcast_scalar_apply _ _ _ _).trans Ideal.ofBits_zero_f32
  have hm : ∀ (A B : FVec Ideal S100000x128 .f32) (i : S100000x128.Idx), maximumf A B i = max (A i) (B i) :=
    fun _ _ _ => rfl
  rw [hm, ha, hz]

/-- The reference's second mean over the in-neighbours is the kernel program's, of the same hidden features. -/
theorem mean2 (x0 : FVec Ideal S100000x128 .f32) (x1 : IVec S2x1600000 32) (x2 : FVec Ideal S128x128 .f32)
    (x3 : FVec Ideal S128 .f32) (x4 : FVec Ideal S128x128 .f32) :
    val_main_v50 (F := Ideal) x0 x1 x2 x3 x4 = KernelHost.mean x1 (val_main_v31 (F := Ideal) x0 x1 x2 x3 x4) := by
  unfold val_main_v50 val_main_v49 val_main_v48 val_main_v47 val_main_v46 val_main_cst_9
  exact (mean_forms _ _ _ _ _).trans rfl

/-- The scores at node `p`, class `q`, read by coordinates. -/
theorem scores_apply (h agg : FVec Ideal Cert.KernelIdeal.S100000x128 .f32) (wl wr : FVec Ideal Cert.KernelIdeal.S128x128 .f32)
    (b : FVec Ideal Cert.KernelIdeal.S1x128 .f32) (wc : FVec Ideal Cert.KernelIdeal.S128x16 .f32)
    (bc : FVec Ideal Cert.KernelIdeal.S1x16 .f32) (p : Fin 100000) (q : Fin 16) :
    Region1.scores h agg wl wr b wc bc (ix2 p q)
      = (∑ k : Fin 128, affine h agg wl wr b p k * wc (ix2 k q)) + bc (ix2 (0 : Fin 1) q) := rfl

/-- THE REFERENCE'S RESULT is the kernel program's result function of the same arrays. -/
theorem result_eq (x0 : FVec Ideal S100000x128 .f32) (x1 : IVec S2x1600000 32) (x2 : FVec Ideal S128x128 .f32)
    (x3 : FVec Ideal S128 .f32) (x4 x5 : FVec Ideal S128x128 .f32) (x6 : FVec Ideal S128 .f32)
    (x7 : FVec Ideal S128x128 .f32) (x8 : FVec Ideal S16x128 .f32) (x9 : FVec Ideal S16 .f32) :
    val_main_v63 (F := Ideal) x0 x1 x2 x3 x4 x5 x6 x7 x8 x9 = KernelHost.result x0 x1 x2 x3 x4 x5 x6 x7 x8 x9 := by
  funext i
  obtain ⟨p, q, rfl⟩ : ∃ (p : Fin 100000) (q : Fin 16), i = ix2 p q := ⟨i 0, i 1, eq_ix2 i⟩
  unfold val_main_v63 val_main_v60 val_main_v62 val_main_v61 val_main_v59 val_main_v58 val_main_v55 val_main_v57
    val_main_v52 val_main_v54 val_main_v53 val_main_v51 val_main_v56
  rw [mean2, hidden_eq]
  unfold KernelHost.result
  have hadd : ∀ (A B : FVec Ideal S100000x16 .f32) (i : S100000x16.Idx), addf A B i = A i + B i := fun _ _ _ => rfl
  rw [hadd, scores_apply, dotGeneral_of_plain dot_S100000x128_S128x16_S100000x16_1_0_0_1_n_n rfl none _ _ p q,
    bcast_1b_ab_apply _ _ rfl, bcast_b_1b_apply _ _ rfl, shapeCast_a_1a_apply]
  refine congrArg (· + x9 (ix1 q)) (Finset.sum_congr rfl fun k _ => ?_)
  have ha := ref_affine (KernelHost.hidden x0 x1 x2 x3 x4) (KernelHost.mean x1 (KernelHost.hidden x0 x1 x2 x3 x4))
    (transpose S128x128 [1, 0] x5 transposes_S128x128_S128x128_1_0)
    (transpose S128x128 [1, 0] x7 transposes_S128x128_S128x128_1_0) x6 Cert.KernelIdeal.Gen.shapeCasts_S128_S1x128 p k
  rw [ha]

end Cert.Sage.RefSide

end
-- ==== Proof.lean ====
/-
  Two GraphSAGE layers with mean aggregation and a linear classifier: the kernel program against its reference, over
  the extended reals.

  Both programs gather each edge's source row, scatter-add it at the edge's destination and average by the
  in-degree floored at one; a layer is `mean · Wlᵀ + x · Wrᵀ + b`, rectified after the first layer, and the classifier
  is `z · Wcᵀ + bc`. The kernel program computes the two layers' dense part in two kernels, 5000 rows per step, on
  weights the host transposed, multiplies the neighbour sum by the reciprocal of the floored degree and adds the bias
  last; the reference divides by the floored degree and adds the bias before the own term. The three run claims are the
  generated frames and the reference's generated run; the idealization rewrote nothing; and the two results are one
  function of the arguments (Proof/KernelRun.lean, Proof/KernelHost.lean, Proof/RefSide.lean).
-/
import proofs.«177372_j37958920962738_1_alg».proof.Defs
import proofs.«177372_j37958920962738_1_alg».proof.Proof.Gen.Kernel
import proofs.«177372_j37958920962738_1_alg».proof.Proof.Gen.Kernel.Skeleton
import proofs.«177372_j37958920962738_1_alg».proof.Proof.Gen.Kernel.Launch
import proofs.«177372_j37958920962738_1_alg».proof.Proof.Gen.Kernel.Points
import proofs.«177372_j37958920962738_1_alg».proof.Proof.Gen.Kernel.Frame
import proofs.«177372_j37958920962738_1_alg».proof.Proof.Gen.KernelIdeal
import proofs.«177372_j37958920962738_1_alg».proof.Proof.Gen.KernelIdeal.Skeleton
import proofs.«177372_j37958920962738_1_alg».proof.Proof.Gen.KernelIdeal.Launch
import proofs.«177372_j37958920962738_1_alg».proof.Proof.Gen.KernelIdeal.Points
import proofs.«177372_j37958920962738_1_alg».proof.Proof.Gen.KernelIdeal.Frame
import proofs.«177372_j37958920962738_1_alg».proof.Proof.Gen.ReferenceIdeal
import proofs.«177372_j37958920962738_1_alg».proof.Proof.Gen.ReferenceIdeal.Run
import proofs.«177372_j37958920962738_1_alg».proof.Proof.Gen.ReferenceIdeal.Read
import proofs.«177372_j37958920962738_1_alg».proof.Proof.Gen.Pre_finite_inputs
import proofs.«177372_j37958920962738_1_alg».proof.Proof.KernelRun
import proofs.«177372_j37958920962738_1_alg».proof.Proof.KernelHost
import proofs.«177372_j37958920962738_1_alg».proof.Proof.RefSide
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same scores: the kernel program's result
    buffer holds its result function of the arguments, and the reference's result is that function of the same
    arguments. The precondition is not used: the laws that join the two sides hold at infinite entries too. -/
theorem algebraic : Cert.algebraic_KernelIdeal_ReferenceIdeal := by
  intro m ρ m' ρ' _ hagree
  refine ⟨fun c => Cert.Sage.KernelHost.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Sage.KernelHost.W4_v46 m ρ c), (h c).2⟩) (Cert.Sage.KernelRun.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v63_eq, h0, h1, h2, h3, h4, h5, h6, h7, h8, h9]
    exact Cert.Sage.RefSide.result_eq _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
